-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S100x128 : Shape := ⟨2, ![100, 128]⟩
abbrev S600000 : Shape := ⟨1, ![600000]⟩
abbrev S2x600000 : Shape := ⟨2, ![2, 600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S100x128 : S_.BroadcastsInDim S100x128 (![] : Fin 0 → Fin S100x128.rank)
  reducesTo_S100x128_S_d0_1 : S100x128.ReducesTo [0, 1] S_
  bcast_S_S600000 : S_.BroadcastsInDim S600000 (![] : Fin 0 → Fin S600000.rank)
  reducesTo_S600000_S_d0 : S600000.ReducesTo [0] S_

variable [Facts]

def fn_part1 {F : FTy → Type} [FloatOps F] (main_arg4 : FVec F S100x128 .f32) (main_arg5 : FVec F S600000 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S100x128 .f32 := Host.absf main_arg4
  let main_cst_6 : FVec F S_ .f32 := constant S_ .f32 0x7F800000#32
  let main_v20 : FVec F S100x128 .f32 := broadcastInDim S100x128 ![] bcast_S_S100x128 main_cst_6
  let main_v21 : IVec S100x128 1 := cmpf .olt main_v19 main_v20
  let main_c_7 : IVec S_ 1 := constantI S_ 1 1#1
  let main_v22 : IVec S_ 1 := (fun x v => Host.reduce IntOp.andi x v reducesTo_S100x128_S_d0_1 h_S_) main_v21 main_c_7
  let main_v23 : IVec S_ 1 := andi main_v18 main_v22
  let main_v24 : FVec F S600000 .f32 := Host.absf main_arg5
  let main_cst_8 : FVec F S_ .f32 := constant S_ .f32 0x7F800000#32
  let main_v25 : FVec F S600000 .f32 := broadcastInDim S600000 ![] bcast_S_S600000 main_cst_8
  let main_v26 : IVec S600000 1 := cmpf .olt main_v24 main_v25
  let main_c_9 : IVec S_ 1 := constantI S_ 1 1#1
  let main_v27 : IVec S_ 1 := (fun x v => Host.reduce IntOp.andi x v reducesTo_S600000_S_d0 h_S_) main_v26 main_c_9
  let main_v28 : IVec S_ 1 := andi main_v23 main_v27
  main_v28

def fn {F : FTy → Type} [FloatOps F] (main_arg0 : FVec F S100000x128 .f32) (main_arg1 : FVec F S128x128 .f32) (main_arg2 : FVec F S128x128 .f32) (main_arg3 : FVec F S128x128 .f32) (main_arg4 : FVec F S100x128 .f32) (main_arg5 : FVec F S600000 .f32) (main_arg6 : IVec S2x600000 32) (main_arg7 : IVec S600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_v13 main_v16
-- ==== Kernel.lean ====
abbrev S100000x128 : Shape := ⟨2, ![100000, 128]⟩
abbrev S128x128 : Shape := ⟨2, ![128, 128]⟩
abbrev S100x128 : Shape := ⟨2, ![100, 128]⟩
abbrev S600000 : Shape := ⟨1, ![600000]⟩
abbrev S2x600000 : Shape := ⟨2, ![2, 600000]⟩
abbrev S1x600000 : Shape := ⟨2, ![1, 600000]⟩
abbrev S_ : Shape := ⟨0, ![]⟩
abbrev S600000x1 : Shape := ⟨2, ![600000, 1]⟩
abbrev S600000x128 : Shape := ⟨2, ![600000, 128]⟩
abbrev S600000x2 : Shape := ⟨2, ![600000, 2]⟩
abbrev S5000x128 : Shape := ⟨2, ![5000, 128]⟩
abbrev S5000x2 : Shape := ⟨2, ![5000, 2]⟩
abbrev S5000x1 : Shape := ⟨2, ![5000, 1]⟩

abbrev nBuf : Space → Nat
  | .hbm => 52
  | .vmem => 17
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S100x128, .f32⟩
  | .hbm, ⟨5, _⟩ => ⟨S600000, .f32⟩
  | .hbm, ⟨6, _⟩ => ⟨S2x600000, .i32⟩
  | .hbm, ⟨7, _⟩ => ⟨S600000, .i32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S_, .i32⟩
  | .hbm, ⟨20, _⟩ => ⟨S600000, .i32⟩
  | .hbm, ⟨21, _⟩ => ⟨S600000, .i1⟩
  | .hbm, ⟨22, _⟩ => ⟨S_, .i32⟩
  | .hbm, ⟨23, _⟩ => ⟨S600000, .i32⟩
  | .hbm, ⟨24, _⟩ => ⟨S600000, .i32⟩
  | .hbm, ⟨25, _⟩ => ⟨S600000, .i32⟩
  | .hbm, ⟨26, _⟩ => ⟨S600000x1, .i32⟩
  | .hbm, ⟨27, _⟩ => ⟨S600000x128, .f32⟩
  | .hbm, ⟨28, _⟩ => ⟨S_, .i32⟩
  | .hbm, ⟨29, _⟩ => ⟨S600000, .i32⟩
  | .hbm, ⟨30, _⟩ => ⟨S600000, .i1⟩
  | .hbm, ⟨31, _⟩ => ⟨S_, .i32⟩
  | .hbm, ⟨32, _⟩ => ⟨S600000, .i32⟩
  | .hbm, ⟨33, _⟩ => ⟨S600000, .i32⟩
  | .hbm, ⟨34, _⟩ => ⟨S600000, .i32⟩
  | .hbm, ⟨35, _⟩ => ⟨S600000x1, .i32⟩
  | .hbm, ⟨36, _⟩ => ⟨S600000x128, .f32⟩
  | .hbm, ⟨37, _⟩ => ⟨S600000, .f32⟩
  | .hbm, ⟨38, _⟩ => ⟨S600000, .f32⟩
  | .hbm, ⟨39, _⟩ => ⟨S_, .f32⟩
  | .hbm, ⟨40, _⟩ => ⟨S600000, .f32⟩
  | .hbm, ⟨41, _⟩ => ⟨S600000, .f32⟩
  | .hbm, ⟨42, _⟩ => ⟨S600000, .f32⟩
  | .hbm, ⟨43, _⟩ => ⟨S600000x1, .f32⟩
  | .hbm, ⟨44, _⟩ => ⟨S600000x1, .f32⟩
  | .hbm, ⟨45, _⟩ => ⟨S600000x2, .f32⟩
  | .hbm, ⟨46, _⟩ => ⟨S600000x128, .f32⟩
  | .hbm, ⟨47, _⟩ => ⟨S_, .f32⟩
  | .hbm, ⟨48, _⟩ => ⟨S100000x128, .f32⟩
  | .hbm, ⟨49, _⟩ => ⟨S600000x1, .i32⟩
  | .hbm, ⟨50, _⟩ => ⟨S100000x128, .f32⟩
  | .hbm, ⟨51, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x2, .f32⟩
  | .local _ .vmem, ⟨5, _⟩ => ⟨S5000x2, .f32⟩
  | .local _ .vmem, ⟨6, _⟩ => ⟨S128x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_v17 : Ref sig .tc := ⟨.hbm, 30, rfl⟩
abbrev main_c_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![120], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  concatenates_S600000x1_S600000x1_S600000x2_d1 : Shape.Concatenates [S600000x1, S600000x1] S600000x2 1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x2_S5000x2_0_0 : ∀ a, (![0, 0] : Fin 2 → Nat) a + S5000x2.size a ≤ S5000x2.size a
  h_S5000x2 : 0 < S5000x2.numel
  shapeCasts_S5000x2_S5000x2 : S5000x2.ShapeCasts S5000x2
  slices_S5000x2_o0_0_S5000x1 : S5000x2.Slices ![0, 0] S5000x1
  slices_S5000x2_o0_1_S5000x1 : S5000x2.Slices ![0, 1] S5000x1
  broadcasts_S5000x1_S5000x128 : S5000x1.Broadcasts S5000x128
  bcast_S_S100000x128 : S_.BroadcastsInDim S100000x128 (![] : Fin 0 → Fin S100000x128.rank)
  gather_S100x128_S600000x1_S600000x128_1_0_n_n_0_1_1128_wf : GatherDims.WF S100x128 S600000x1 S600000x128 [1] [0] [] [0] [] 1 ![1, 128]
  gather_S100000x128_S600000x1_S600000x128_1_0_n_n_0_1_1128_wf : GatherDims.WF S100000x128 S600000x1 S600000x128 [1] [0] [] [0] [] 1 ![1, 128]
  dot_S5000x128_S128x128_S5000x128_1_0_0_1_n_n_wf : DotDims.WF S5000x128 S128x128 S5000x128 [1] [0] [0] [1] [] []
  scatter_S100000x128_S600000x1_S600000x128_1_0_0_1_wf : ScatterDims.WF S100000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S600000x128.size a
  hwx0_0 : ∀ i : grid0.Coords, EltTy.bits .f32 = 32 ∨ (Rect.block (s := S600000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S600000x128.size a
  hwx0_1 : ∀ i : grid0.Coords, EltTy.bits .f32 = 32 ∨ (Rect.block (s := S600000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x2.size a ≤ S600000x2.size a
  hwx0_2 : ∀ i : grid0.Coords, EltTy.bits .f32 = 32 ∨ (Rect.block (s := S600000x2) S5000x2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S600000x128.size a
  hwx0_5 : ∀ i : grid0.Coords, EltTy.bits .f32 = 32 ∨ (Rect.block (s := S600000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)

variable [Facts₀]

def gather_S100x128_S600000x1_S600000x128_1_0_n_n_0_1_1128 : GatherDims S100x128 S600000x1 S600000x128 where
  offsetDims := [1]
  collapsedSliceDims := [0]
  operandBatchingDims := []
  startIndicesBatchingDims := []
  startIndexMap := [0]
  indexVectorDim := 1
  sliceSizes := ![1, 128]
  wf := gather_S100x128_S600000x1_S600000x128_1_0_n_n_0_1_1128_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S100x128 : Shape := ⟨2, ![100, 128]⟩
abbrev S600000 : Shape := ⟨1, ![600000]⟩
abbrev S2x600000 : Shape := ⟨2, ![2, 600000]⟩
abbrev S1x600000 : Shape := ⟨2, ![1, 600000]⟩
abbrev S_ : Shape := ⟨0, ![]⟩
abbrev S600000x1 : Shape := ⟨2, ![600000, 1]⟩
abbrev S600000x128 : Shape := ⟨2, ![600000, 128]⟩

abbrev nBuf : Space → Nat
  | .hbm => 59
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S100x128, .f32⟩
  | .hbm, ⟨5, _⟩ => ⟨S600000, .f32⟩
  | .hbm, ⟨6, _⟩ => ⟨S2x600000, .i32⟩
  | .hbm, ⟨7, _⟩ => ⟨S600000, .i32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S_, .i32⟩
  | .hbm, ⟨20, _⟩ => ⟨S600000, .i32⟩
  | .hbm, ⟨21, _⟩ => ⟨S600000, .i1⟩
  | .hbm, ⟨22, _⟩ => ⟨S_, .i32⟩
  | .hbm, ⟨23, _⟩ => ⟨S600000, .i32⟩
  | .hbm, ⟨24, _⟩ => ⟨S600000, .i32⟩
  | .hbm, ⟨25, _⟩ => ⟨S600000, .i32⟩
  | .hbm, ⟨26, _⟩ => ⟨S600000x1, .i32⟩
  | .hbm, ⟨27, _⟩ => ⟨S600000x128, .f32⟩
  | .hbm, ⟨28, _⟩ => ⟨S_, .i32⟩
  | .hbm, ⟨29, _⟩ => ⟨S600000, .i32⟩
  | .hbm, ⟨30, _⟩ => ⟨S600000, .i1⟩
  | .hbm, ⟨31, _⟩ => ⟨S_, .i32⟩
  | .hbm, ⟨32, _⟩ => ⟨S600000, .i32⟩
  | .hbm, ⟨33, _⟩ => ⟨S600000, .i32⟩
  | .hbm, ⟨34, _⟩ => ⟨S600000, .i32⟩
  | .hbm, ⟨35, _⟩ => ⟨S600000x1, .i32⟩
  | .hbm, ⟨36, _⟩ => ⟨S600000x128, .f32⟩
  | .hbm, ⟨37, _⟩ => ⟨S600000x128, .f32⟩
  | .hbm, ⟨38, _⟩ => ⟨S600000x128, .f32⟩
  | .hbm, ⟨39, _⟩ => ⟨S600000x128, .f32⟩
  | .hbm, ⟨40, _⟩ => ⟨S600000x1, .i1⟩
  | .hbm, ⟨41, _⟩ => ⟨S600000x1, .f32⟩
  | .hbm, ⟨42, _⟩ => ⟨S600000x128, .f32⟩
  | .hbm, ⟨43, _⟩ => ⟨S600000x128, .f32⟩
  | .hbm, ⟨44, _⟩ => ⟨S_, .f32⟩
  | .hbm, ⟨45, _⟩ => ⟨S600000x1, .f32⟩
  | .hbm, ⟨46, _⟩ => ⟨S600000x1, .f32⟩
  | .hbm, ⟨47, _⟩ => ⟨S600000x128, .f32⟩
  | .hbm, ⟨48, _⟩ => ⟨S600000x128, .f32⟩
  | .hbm, ⟨49, _⟩ => ⟨S600000x128, .f32⟩
  | .hbm, ⟨50, _⟩ => ⟨S600000x1, .f32⟩
  | .hbm, ⟨51, _⟩ => ⟨S600000x128, .f32⟩
  | .hbm, ⟨52, _⟩ => ⟨S600000x128, .f32⟩
  | .hbm, ⟨53, _⟩ => ⟨S_, .f32⟩
  | .hbm, ⟨54, _⟩ => ⟨S100000x128, .f32⟩
  | .hbm, ⟨55, _⟩ => ⟨S600000x1, .i32⟩
  | .hbm, ⟨56, _⟩ => ⟨S100000x128, .f32⟩
  | .hbm, ⟨57, _⟩ => ⟨S100000x128, .f32⟩
  | .hbm, ⟨58, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_v17 : Ref sig .tc := ⟨.hbm, 30, rfl⟩
abbrev main_c_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_5 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S600000x1 : S_.BroadcastsInDim S600000x1 (![] : Fin 0 → Fin S600000x1.rank)
  bcast_S_S100000x128 : S_.BroadcastsInDim S100000x128 (![] : Fin 0 → Fin S100000x128.rank)
  gather_S100x128_S600000x1_S600000x128_1_0_n_n_0_1_1128_wf : GatherDims.WF S100x128 S600000x1 S600000x128 [1] [0] [] [0] [] 1 ![1, 128]
  gather_S100000x128_S600000x1_S600000x128_1_0_n_n_0_1_1128_wf : GatherDims.WF S100000x128 S600000x1 S600000x128 [1] [0] [] [0] [] 1 ![1, 128]
  dot_S600000x128_S128x128_S600000x128_1_0_0_1_n_n_wf : DotDims.WF S600000x128 S128x128 S600000x128 [1] [0] [0] [1] [] []
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []

variable [Facts₀]

def gather_S100x128_S600000x1_S600000x128_1_0_n_n_0_1_1128 : GatherDims S100x128 S600000x1 S600000x128 where
  offsetDims := [1]
  collapsedSliceDims := [0]
  operandBatchingDims := []
  startIndicesBatchingDims := []
  startIndexMap := [0]
  indexVectorDim := 1
  sliceSizes := ![1, 128]
  wf := gather_S100x128_S600000x1_S600000x128_1_0_n_n_0_1_1128_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel's run with its result named.

  The program is two grids with lines of array operations before, between and after them. Along the run the
  contents of every buffer at each boundary are a fold from the launch memory: a line of array operations applies
  its operations in order, a grid leaves in each of its arrays what its write-backs leave and every other buffer
  as it found it. Every weakly fair execution terminates, nothing faulting, with the result buffer holding the last
  boundary's contents at that buffer and every argument as launched.
-/
import proofs.«154744_j15006615732839_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v35) = W6 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v35 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.RunValue

end
-- ==== Proof.Spec.lean ====
/-
  What the layer computes, as whole-array functions of its operand arrays, index by index, on the extended reals.

  * `rowDot l w p q`: row `p` of `l` against column `q` of a 128 x 128 weight, `Σ_k l[p,k] · w[k,q]`.
  * `message xs r aux wf wb`: the edge messages. Edge `e`'s composed feature is `xs[e,·] · r[e,·]` entrywise; it is
    projected once with each of the two weights, and the two projections are weighted by the edge's two scales
    `aux[e,0]`, `aux[e,1]` and added.
  * `selfLoop x seg wl`: the node update, `seg[n,c] + Σ_k x[n,k] · wl[k,c]`.
-/
import Idealize.ShloMosaic.Lib.ValueIdx
import Idealize.ShloMosaic.PureOps.Ideal

noncomputable section

open scoped BigOperators

namespace Cert.Spec

open Idealize.ShloMosaic Idealize.ShloMosaic.ValueIdx

/-- Row `p` of `l` against column `q` of `w`. -/
def rowDot {M : Nat} (l : (⟨2, ![M, 128]⟩ : Shape).Idx → EReal) (w : (⟨2, ![128, 128]⟩ : Shape).Idx → EReal)
    (p : Fin M) (q : Fin 128) : EReal :=
  ∑ k : Fin 128, l (ix2 p k) * w (ix2 k q)

/-- One entry of the edge messages from `M` rows of gathered features, relation rows and scales. -/
def messageAt {M : Nat} (xs r : (⟨2, ![M, 128]⟩ : Shape).Idx → EReal) (aux : (⟨2, ![M, 2]⟩ : Shape).Idx → EReal)
    (wf wb : (⟨2, ![128, 128]⟩ : Shape).Idx → EReal) (p : Fin M) (q : Fin 128) : EReal :=
  rowDot (fun j => xs j * r j) wf p q * aux (ix2 p (0 : Fin 2))
    + rowDot (fun j => xs j * r j) wb p q * aux (ix2 p (1 : Fin 2))

/-- The edge messages as one array. -/
def message {M : Nat} (xs r : (⟨2, ![M, 128]⟩ : Shape).Idx → EReal) (aux : (⟨2, ![M, 2]⟩ : Shape).Idx → EReal)
    (wf wb : (⟨2, ![128, 128]⟩ : Shape).Idx → EReal) : (⟨2, ![M, 128]⟩ : Shape).Idx → EReal :=
  fun i => messageAt xs r aux wf wb (i 0) (i 1)

/-- One entry of the node update. -/
def selfLoopAt {M : Nat} (x seg : (⟨2, ![M, 128]⟩ : Shape).Idx → EReal) (wl : (⟨2, ![128, 128]⟩ : Shape).Idx → EReal)
    (p : Fin M) (q : Fin 128) : EReal :=
  seg (ix2 p q) + rowDot x wl p q

/-- The node update as one array. -/
def selfLoop {M : Nat} (x seg : (⟨2, ![M, 128]⟩ : Shape).Idx → EReal) (wl : (⟨2, ![128, 128]⟩ : Shape).Idx → EReal) :
    (⟨2, ![M, 128]⟩ : Shape).Idx → EReal :=
  fun i => selfLoopAt x seg wl (i 0) (i 1)

theorem message_ix2 {M : Nat} (xs r : (⟨2, ![M, 128]⟩ : Shape).Idx → EReal) (aux : (⟨2, ![M, 2]⟩ : Shape).Idx → EReal)
    (wf wb : (⟨2, ![128, 128]⟩ : Shape).Idx → EReal) (p : Fin M) (q : Fin 128) :
    message xs r aux wf wb (ix2 p q) = messageAt xs r aux wf wb p q := rfl

theorem selfLoop_ix2 {M : Nat} (x seg : (⟨2, ![M, 128]⟩ : Shape).Idx → EReal) (wl : (⟨2, ![128, 128]⟩ : Shape).Idx → EReal)
    (p : Fin M) (q : Fin 128) : selfLoop x seg wl (ix2 p q) = selfLoopAt x seg wl p q := rfl

end Cert.Spec

end
-- ==== Proof.LibPlainDot.lean ====
/-
  A plain matrix product read at one entry.

  For the dimension numbers of an `M × K` by `K × N` product (the left operand contracted on its columns, the
  right on its rows, no batch axis) the entry at row `p`, column `q` of a `tpu.matmul` into the zero
  accumulator, and of the host's `dot_general`, is at the ideal values the sum over `k` of the left operand at
  `(p, k)` times the right operand at `(k, q)`. The contraction index of the dimension numbers is re-indexed by
  its one coordinate, so the sum runs over the literal `Fin K`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : Nat}

/-- The left operand's index at output entry `(p, q)` and contraction position `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output entry `(p, q)` and contraction position `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A `tpu.matmul` into the zero accumulator, at entry `(p, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  exact Finset.sum_congr rfl fun k _ => by rw [lhsIdx_plain, rhsIdx_plain]

/-- The host's `dot_general`, at entry `(p, q)`. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  exact Finset.sum_congr rfl fun k _ => by rw [lhsIdx_plain, rhsIdx_plain]

end Cert.Lib.PlainDot

end
-- ==== Proof.LibColumn.lean ====
/-
  General facts about a column of row values, read at an entry.

  * A vector of length `M` viewed as an `M × 1` column reads, at `(p, 0)`, the vector at `p` (`col_apply`).
  * An `M × 1` column repeated along `N` lanes reads, at `(p, q)`, the column at `(p, 0)` (`colBroadcast_apply`).
  * Summing an `M × 1` column down its rows gives, at the one entry, the sum of the column's entries (`colSum_apply`).
-/
import Idealize.ShloMosaic.Lib.ValueIdx
import Idealize.ShloMosaic.Lib.Pipeline.Value
import Idealize.ShloMosaic.PureOps.Ideal.Laws

noncomputable section

open scoped BigOperators

namespace Cert.Lib.Column

open Idealize.ShloMosaic Idealize.ShloMosaic.ValueIdx

variable {α : Type} {M N : Nat}

/-- A vector of length `M` viewed as an `M × 1` column: at `(p, 0)`, the vector at `p`. -/
theorem col_apply (v : (⟨1, ![M]⟩ : Shape).Idx → α) (hc : (⟨1, ![M]⟩ : Shape).ShapeCasts ⟨2, ![M, 1]⟩) (p : Fin M) :
    shapeCast ⟨2, ![M, 1]⟩ v hc (ix2 p (0 : Fin 1)) = v (ix1 p) := by
  refine shapeCast_apply v hc (ix2 p (0 : Fin 1)) (ix1 p) ?_
  rw [Shape.rowMajor_val_one, Shape.rowMajor_val_two]
  show p.val = p.val * 1 + 0
  omega

/-- An `M × 1` column repeated along `N` lanes: at `(p, q)`, the column at `(p, 0)`. -/
theorem colBroadcast_apply (v : (⟨2, ![M, 1]⟩ : Shape).Idx → α) (hb : (⟨2, ![M, 1]⟩ : Shape).Broadcasts ⟨2, ![M, N]⟩)
    (p : Fin M) (q : Fin N) :
    broadcastTo ⟨2, ![M, N]⟩ v hb (ix2 p q) = v (ix2 p (0 : Fin 1)) := by
  refine broadcastTo_apply _ hb (ix2 p q) (ix2 p (0 : Fin 1)) (fun a => ?_)
  match a with
  | ⟨0, _⟩ =>
    show p.val = if M = 1 then 0 else p.val
    split
    · have := p.isLt; omega
    · rfl
  | ⟨1, _⟩ => exact (if_pos rfl).symm

/-- Over the one entry of the result, the index with `k` put on the row axis is `(k, 0)`. -/
theorem lift_col (h : (⟨2, ![M, 1]⟩ : Shape).Reduces [0] ⟨1, ![1]⟩) (k : Fin M) :
    h.lift (ix1 (0 : Fin 1)) k = ix2 k (0 : Fin 1) := by
  funext a
  apply Fin.ext
  match a with
  | ⟨0, _⟩ => rfl
  | ⟨1, _⟩ => rfl

/-- The sum of an `M × 1` column down its rows. -/
theorem colSum_apply {φ : FTy} (src : FVec Ideal ⟨2, ![M, 1]⟩ φ) (acc : BitVec φ.bits)
    (h : (⟨2, ![M, 1]⟩ : Shape).Reduces [0] ⟨1, ![1]⟩) (hφ : FKind.Formats φ) (hacc : acc = FKind.add.neutral φ hφ) :
    multiReduction .add [0] ⟨1, ![1]⟩ src acc h hφ hacc (ix1 (0 : Fin 1)) = ∑ k : Fin M, src (ix2 k (0 : Fin 1)) := by
  rw [Ideal.multiReduction_add_single]
  exact Finset.sum_congr rfl fun k _ => congrArg src (lift_col h k)

end Cert.Lib.Column

end
-- ==== Proof.Body.lean ====
/-
  The two kernel bodies' stored values at an entry, at the ideal values.

  Narrowing to bf16 is the identity and a matrix product into a zero accumulator is the plain sum over the
  contracted axis, so the first body stores, at row `p` and column `q` of its block, the message entry of the block's
  rows (the scales read from columns 0 and 1 of the block's 5000 x 2 scale array, each repeated along the lanes), and
  the second the node update entry of its block's rows.
-/
import proofs.«154744_j15006615732839_1_alg».proof.Proof.Gen.KernelIdeal.Skeleton
import proofs.«154744_j15006615732839_1_alg».proof.Proof.Spec
import proofs.«154744_j15006615732839_1_alg».proof.Proof.LibPlainDot
import proofs.«154744_j15006615732839_1_alg».proof.Proof.LibColumn
import Idealize.ShloMosaic.Lib.Pipeline.Value

noncomputable section

open scoped BigOperators

namespace Cert.KernelIdeal.Body

open Cert.KernelIdeal Cert.KernelIdeal.Gen Idealize.ShloMosaic Idealize.ShloMosaic.ValueIdx Cert.Spec

/-- Column `b` of the 5000 x 2 scale block, repeated along the 128 lanes, at `(p, q)`. -/
theorem scale_apply (x2 : Vec Ideal S5000x2 .f32) (o : Nat) (b : Fin 2) (ho : b.val = o) (hs : S5000x2.Slices ![0, o] S5000x1)
    (hb : S5000x1.Broadcasts S5000x128) (p : Fin 5000) (q : Fin 128) :
    broadcastTo S5000x128 (extractStridedSlice S5000x1 ![0, o] x2 hs) hb (ix2 p q) = x2 (ix2 p b) := by
  rw [Cert.Lib.Column.colBroadcast_apply]
  refine extractStridedSlice_apply _ x2 hs _ (ix2 p b) fun a => ?_
  match a with
  | ⟨0, _⟩ => show p.val = 0 + p.val; omega
  | ⟨1, _⟩ => show b.val = o + 0; omega

/-- A block's rows against a weight: the product into the zero accumulator at `(p, q)`. -/
theorem product_apply (l : FVec Ideal S5000x128 .bf16) (r : FVec Ideal S128x128 .bf16) (p : Fin 5000) (q : Fin 128) :
    matmul dot_S5000x128_S128x128_S5000x128_1_0_0_1_n_n none l r (constant S5000x128 .f32 0x00000000#32) (ix2 p q)
      = ∑ k : Fin 128, l (ix2 p k) * r (ix2 k q) :=
  Cert.Lib.PlainDot.matmul_zero_apply (M := 5000) (K := 128) (N := 128) none l r p q

/-- The first body's stored value at `(p, q)`. -/
theorem pay0_apply (x0 x1 : Vec Ideal S5000x128 .f32) (x3 x4 : Vec Ideal S128x128 .f32) (x2 : Vec Ideal S5000x2 .f32)
    (p : Fin 5000) (q : Fin 128) :
    k0_pay1 (F := Ideal) x0 x1 x3 x4 x2 (ix2 p q) = messageAt x0 x1 x2 x3 x4 p q := by
  unfold k0_pay1
  simp only [shapeCast_self]
  rw [addf_apply, mulf_apply, mulf_apply, product_apply, product_apply,
    scale_apply x2 0 (0 : Fin 2) rfl, scale_apply x2 1 (1 : Fin 2) rfl]
  rfl

/-- The second body's stored value at `(p, q)`. -/
theorem pay1_apply (x0 : Vec Ideal S5000x128 .f32) (x2 : Vec Ideal S128x128 .f32) (x1 : Vec Ideal S5000x128 .f32)
    (p : Fin 5000) (q : Fin 128) :
    k1_pay1 (F := Ideal) x0 x2 x1 (ix2 p q) = selfLoopAt x0 x1 x2 p q := by
  unfold k1_pay1
  simp only [shapeCast_self]
  rw [addf_apply, product_apply]
  rfl

end Cert.KernelIdeal.Body

end
-- ==== Proof.Blocks.lean ====
/-
  Each grid's output array as one whole-array function of the arrays the grid is entered with.

  Both grids walk the rows of their operands in blocks of 5000: at point `t` the row-blocked windows hold rows
  `5000 t … 5000 t + 4999` of their arrays and the weight windows hold the whole 128 x 128 weights. What point `t`
  writes back is therefore block `t` of one function of the whole arrays — the edge messages for the first grid, the
  node update for the second — and since the blocks tile the output (row `n` lies in block `n / 5000`), the output
  array ends holding that function.
-/
import proofs.«154744_j15006615732839_1_alg».proof.Proof.Gen.KernelIdeal.Frame
import proofs.«154744_j15006615732839_1_alg».proof.Proof.Body
import Idealize.ShloMosaic.Lib.Pipeline.Value

set_option maxRecDepth 16384

noncomputable section

open scoped BigOperators

namespace Cert.KernelIdeal.Blocks

open Cert.KernelIdeal Cert.KernelIdeal.Gen Cert.KernelIdeal.Body Cert.Spec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The first grid: the edge messages -/

/-- The printed index maps over the first grid: the row-blocked windows are at block row `t`, block column 0; the
    weights at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of the gathered-feature block at point `t` is row `5000 t + p` of the array. -/
theorem blk0_0 (c : Dev nD) (t : Fin cfg0.N) (p : Fin 5000) (e : Fin 600000) (he : e.val = t.val * 5000 + p.val) (k : Fin 128) :
    (iblk0 V c 0 t : Vec Ideal S5000x128 .f32) (ix2 p k) = (V c main_v22 : S600000x128.Idx → EReal) (ix2 e k) := by
  obtain ⟨h0, h1, -⟩ := idx_facts0 t
  unfold iblk0
  rw [View.read_apply]
  show V c main_v22 _ = V c main_v22 _
  congr 1
  funext a
  apply Fin.ext
  match a with
  | ⟨0, _⟩ => show win0_0.index t (0 : Fin 2) * 5000 + 1 * p.val = e.val; rw [h0, he]; omega
  | ⟨1, _⟩ => show win0_0.index t (1 : Fin 2) * 128 + 1 * k.val = k.val; rw [h1]; omega

/-- Row `p` of the relation-row block at point `t` is row `5000 t + p` of the array. -/
theorem blk0_1 (c : Dev nD) (t : Fin cfg0.N) (p : Fin 5000) (e : Fin 600000) (he : e.val = t.val * 5000 + p.val) (k : Fin 128) :
    (iblk0 V c 1 t : Vec Ideal S5000x128 .f32) (ix2 p k) = (V c main_v15 : S600000x128.Idx → EReal) (ix2 e k) := by
  obtain ⟨-, -, h0, h1, -⟩ := idx_facts0 t
  unfold iblk0
  rw [View.read_apply]
  show V c main_v15 _ = V c main_v15 _
  congr 1
  funext a
  apply Fin.ext
  match a with
  | ⟨0, _⟩ => show win0_1.index t (0 : Fin 2) * 5000 + 1 * p.val = e.val; rw [h0, he]; omega
  | ⟨1, _⟩ => show win0_1.index t (1 : Fin 2) * 128 + 1 * k.val = k.val; rw [h1]; omega

/-- Row `p` of the scale block at point `t` is row `5000 t + p` of the scale array. -/
theorem blk0_2 (c : Dev nD) (t : Fin cfg0.N) (p : Fin 5000) (e : Fin 600000) (he : e.val = t.val * 5000 + p.val) (b : Fin 2) :
    (iblk0 V c 2 t : Vec Ideal S5000x2 .f32) (ix2 p b) = (V c main_v30 : S600000x2.Idx → EReal) (ix2 e b) := by
  obtain ⟨-, -, -, -, h0, h1, -⟩ := idx_facts0 t
  unfold iblk0
  rw [View.read_apply]
  show V c main_v30 _ = V c main_v30 _
  congr 1
  funext a
  apply Fin.ext
  match a with
  | ⟨0, _⟩ => show win0_2.index t (0 : Fin 2) * 5000 + 1 * p.val = e.val; rw [h0, he]; omega
  | ⟨1, _⟩ => show win0_2.index t (1 : Fin 2) * 2 + 1 * b.val = b.val; rw [h1]; omega

/-- The forward weight's block is the whole weight at every point. -/
theorem blk0_3 (c : Dev nD) (t : Fin cfg0.N) (k q : Fin 128) :
    (iblk0 V c 3 t : Vec Ideal S128x128 .f32) (ix2 k q) = (V c main_arg2 : S128x128.Idx → EReal) (ix2 k q) := by
  obtain ⟨-, -, -, -, -, -, h0, h1, -⟩ := idx_facts0 t
  unfold iblk0
  rw [View.read_apply]
  show V c main_arg2 _ = V c main_arg2 _
  congr 1
  funext a
  apply Fin.ext
  match a with
  | ⟨0, _⟩ => show win0_3.index t (0 : Fin 2) * 128 + 1 * k.val = k.val; rw [h0]; omega
  | ⟨1, _⟩ => show win0_3.index t (1 : Fin 2) * 128 + 1 * q.val = q.val; rw [h1]; omega

/-- The backward weight's block is the whole weight at every point. -/
theorem blk0_4 (c : Dev nD) (t : Fin cfg0.N) (k q : Fin 128) :
    (iblk0 V c 4 t : Vec Ideal S128x128 .f32) (ix2 k q) = (V c main_arg3 : S128x128.Idx → EReal) (ix2 k q) := by
  obtain ⟨-, -, -, -, -, -, -, -, h0, h1, -⟩ := idx_facts0 t
  unfold iblk0
  rw [View.read_apply]
  show V c main_arg3 _ = V c main_arg3 _
  congr 1
  funext a
  apply Fin.ext
  match a with
  | ⟨0, _⟩ => show win0_4.index t (0 : Fin 2) * 128 + 1 * k.val = k.val; rw [h0]; omega
  | ⟨1, _⟩ => show win0_4.index t (1 : Fin 2) * 128 + 1 * q.val = q.val; rw [h1]; omega

/-- The edge messages of the arrays the first grid is entered with. -/
abbrev messages (c : Dev nD) : S600000x128.Idx → EReal :=
  message (M := 600000) (V c main_v22 : S600000x128.Idx → EReal) (V c main_v15 : S600000x128.Idx → EReal)
    (V c main_v30 : S600000x2.Idx → EReal) (V c main_arg2 : S128x128.Idx → EReal) (V c main_arg3 : S128x128.Idx → EReal)

/-- What point `t` of the first grid writes back is block `t` of the edge messages. -/
theorem flushed0 (c : Dev nD) (t : Fin cfg0.N) :
    (dat0 V c).flushed 5 t = ((cfg0.win 5).blk t).view.read (Elt Ideal) (messages V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S5000x2) hz]
  funext j
  obtain ⟨p, q, rfl⟩ : ∃ (p : Fin 5000) (q : Fin 128), j = ix2 p q := ⟨j 0, j 1, eq_ix2 j⟩
  refine (pay0_apply (iblk0 V c 0 t) (iblk0 V c 1 t) (iblk0 V c 3 t) (iblk0 V c 4 t) (iblk0 V c 2 t) p q).trans ?_
  have hp : p.val < 5000 := p.isLt
  have ht : t.val < 120 := lt_of_lt_of_eq t.isLt N_0
  obtain ⟨-, -, -, -, -, -, -, -, -, -, h0, h1⟩ := idx_facts0 t
  let e : Fin 600000 := ⟨t.val * 5000 + p.val, by omega⟩
  have hemb : ((cfg0.win 5).blk t).view.emb (ix2 p q) = (ix2 e q : S600000x128.Idx) := by
    funext a
    apply Fin.ext
    match a with
    | ⟨0, _⟩ => show win0_5.index t (0 : Fin 2) * 5000 + 1 * p.val = t.val * 5000 + p.val; rw [h0]; omega
    | ⟨1, _⟩ => show win0_5.index t (1 : Fin 2) * 128 + 1 * q.val = q.val; rw [h1]; omega
  rw [View.read_apply]
  show _ = messages V c (((cfg0.win 5).blk t).view.emb (ix2 p q))
  rw [hemb]
  show _ = messageAt _ _ _ _ _ e q
  unfold messageAt rowDot
  simp only [blk0_0 V c t p e rfl, blk0_1 V c t p e rfl, blk0_2 V c t p e rfl, blk0_3 V c t, blk0_4 V c t]

/-- An index of the message array is in point `t`'s block iff each coordinate is in the block's range. -/
theorem mem_blk0 (t : Fin cfg0.N) (i : S600000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v31).slice (win0_5.rect t)).set ↔ _
  rw [View.set_slice_whole, Rect.mem_set_unit]
  exact Iff.rfl

/-- Row `n` of the message array lies in the block of point `n / 5000`. -/
theorem cover0 (i : S600000x128.Idx) :
    ∃ t : Fin cfg0.N, (cfg0.win 5).flush t = true ∧ i ∈ ((cfg0.win 5).blk t).view.set := by
  have hi0 : (i 0).val < 600000 := (i 0).isLt
  have hi1 : (i 1).val < 128 := (i 1).isLt
  have hN : cfg0.N = 120 := N_0
  have hlt : (i 0).val / 5000 < cfg0.N := by rw [hN]; omega
  refine ⟨⟨(i 0).val / 5000, hlt⟩, flush0_5 _, ?_⟩
  rw [mem_blk0]
  obtain ⟨-, -, -, -, -, -, -, -, -, -, h0, h1⟩ := idx_facts0 ⟨(i 0).val / 5000, hlt⟩
  intro a
  match a with
  | ⟨0, _⟩ =>
    show win0_5.index ⟨(i 0).val / 5000, hlt⟩ (0 : Fin 2) * 5000 ≤ (i 0).val ∧ (i 0).val < win0_5.index ⟨(i 0).val / 5000, hlt⟩ (0 : Fin 2) * 5000 + 5000
    rw [h0]; show (i 0).val / 5000 * 5000 ≤ (i 0).val ∧ (i 0).val < (i 0).val / 5000 * 5000 + 5000; omega
  | ⟨1, _⟩ =>
    show win0_5.index ⟨(i 0).val / 5000, hlt⟩ (1 : Fin 2) * 128 ≤ (i 1).val ∧ (i 1).val < win0_5.index ⟨(i 0).val / 5000, hlt⟩ (1 : Fin 2) * 128 + 128
    rw [h1]; omega

/-- The first grid leaves the edge messages in its output array. -/
theorem message_array (c : Dev nD) : (dat0 V c).arrAt 5 cfg0.N = messages V c :=
  (dat0 V c).arrAt_eq_of_cover 5 (messages V c) (fun t _ => flushed0 V c t) cover0

/-! ## The second grid: the node update -/

/-- The printed index maps over the second grid. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of the node-feature block at point `t` is row `5000 t + p` of the node features. -/
theorem blk1_0 (c : Dev nD) (t : Fin cfg1.N) (p : Fin 5000) (n : Fin 100000) (hn : n.val = t.val * 5000 + p.val) (k : Fin 128) :
    (iblk1 V c 0 t : Vec Ideal S5000x128 .f32) (ix2 p k) = (V c main_arg0 : S100000x128.Idx → EReal) (ix2 n k) := by
  obtain ⟨h0, h1, -⟩ := idx_facts1 t
  unfold iblk1
  rw [View.read_apply]
  show V c main_arg0 _ = V c main_arg0 _
  congr 1
  funext a
  apply Fin.ext
  match a with
  | ⟨0, _⟩ => show win1_0.index t (0 : Fin 2) * 5000 + 1 * p.val = n.val; rw [h0, hn]; omega
  | ⟨1, _⟩ => show win1_0.index t (1 : Fin 2) * 128 + 1 * k.val = k.val; rw [h1]; omega

/-- Row `p` of the scattered-sum block at point `t` is row `5000 t + p` of the scattered sums. -/
theorem blk1_1 (c : Dev nD) (t : Fin cfg1.N) (p : Fin 5000) (n : Fin 100000) (hn : n.val = t.val * 5000 + p.val) (k : Fin 128) :
    (iblk1 V c 1 t : Vec Ideal S5000x128 .f32) (ix2 p k) = (V c main_v34 : S100000x128.Idx → EReal) (ix2 n k) := by
  obtain ⟨-, -, h0, h1, -⟩ := idx_facts1 t
  unfold iblk1
  rw [View.read_apply]
  show V c main_v34 _ = V c main_v34 _
  congr 1
  funext a
  apply Fin.ext
  match a with
  | ⟨0, _⟩ => show win1_1.index t (0 : Fin 2) * 5000 + 1 * p.val = n.val; rw [h0, hn]; omega
  | ⟨1, _⟩ => show win1_1.index t (1 : Fin 2) * 128 + 1 * k.val = k.val; rw [h1]; omega

/-- The self-loop weight's block is the whole weight at every point. -/
theorem blk1_2 (c : Dev nD) (t : Fin cfg1.N) (k q : Fin 128) :
    (iblk1 V c 2 t : Vec Ideal S128x128 .f32) (ix2 k q) = (V c main_arg1 : S128x128.Idx → EReal) (ix2 k q) := by
  obtain ⟨-, -, -, -, h0, h1, -⟩ := idx_facts1 t
  unfold iblk1
  rw [View.read_apply]
  show V c main_arg1 _ = V c main_arg1 _
  congr 1
  funext a
  apply Fin.ext
  match a with
  | ⟨0, _⟩ => show win1_2.index t (0 : Fin 2) * 128 + 1 * k.val = k.val; rw [h0]; omega
  | ⟨1, _⟩ => show win1_2.index t (1 : Fin 2) * 128 + 1 * q.val = q.val; rw [h1]; omega

/-- The node update of the arrays the second grid is entered with. -/
abbrev updates (c : Dev nD) : S100000x128.Idx → EReal :=
  selfLoop (M := 100000) (V c main_arg0 : S100000x128.Idx → EReal) (V c main_v34 : S100000x128.Idx → EReal)
    (V c main_arg1 : S128x128.Idx → EReal)

/-- What point `t` of the second grid writes back is block `t` of the node update. -/
theorem flushed1 (c : Dev nD) (t : Fin cfg1.N) :
    (dat1 V c).flushed 3 t = ((cfg1.win 3).blk t).view.read (Elt Ideal) (updates V c) := by
  show (cfg1.win 3).cut (grid1.coords t) ((dat1 V c).after 3 t) = _
  rw [after1_3]
  unfold out1_3
  rw [View.canon_unit_zero hz]
  simp only [View.ld_unit_zero (S := S5000x128) hz, View.ld_unit_zero (S := S128x128) hz]
  funext j
  obtain ⟨p, q, rfl⟩ : ∃ (p : Fin 5000) (q : Fin 128), j = ix2 p q := ⟨j 0, j 1, eq_ix2 j⟩
  refine (pay1_apply (iblk1 V c 0 t) (iblk1 V c 2 t) (iblk1 V c 1 t) p q).trans ?_
  have hp : p.val < 5000 := p.isLt
  have ht : t.val < 20 := lt_of_lt_of_eq t.isLt N_1
  obtain ⟨-, -, -, -, -, -, h0, h1⟩ := idx_facts1 t
  let n : Fin 100000 := ⟨t.val * 5000 + p.val, by omega⟩
  have hemb : ((cfg1.win 3).blk t).view.emb (ix2 p q) = (ix2 n q : S100000x128.Idx) := by
    funext a
    apply Fin.ext
    match a with
    | ⟨0, _⟩ => show win1_3.index t (0 : Fin 2) * 5000 + 1 * p.val = t.val * 5000 + p.val; rw [h0]; omega
    | ⟨1, _⟩ => show win1_3.index t (1 : Fin 2) * 128 + 1 * q.val = q.val; rw [h1]; omega
  rw [View.read_apply]
  show _ = updates V c (((cfg1.win 3).blk t).view.emb (ix2 p q))
  rw [hemb]
  show _ = selfLoopAt _ _ _ n q
  unfold selfLoopAt rowDot
  simp only [blk1_0 V c t p n rfl, blk1_1 V c t p n rfl, blk1_2 V c t]

/-- An index of the result array is in point `t`'s block iff each coordinate is in the block's range. -/
theorem mem_blk1 (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v35).slice (win1_3.rect t)).set ↔ _
  rw [View.set_slice_whole, Rect.mem_set_unit]
  exact Iff.rfl

/-- Row `n` of the result array lies in the block of point `n / 5000`. -/
theorem cover1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := N_1
  have hlt : (i 0).val / 5000 < cfg1.N := by rw [hN]; omega
  refine ⟨⟨(i 0).val / 5000, hlt⟩, flush1_3 _, ?_⟩
  rw [mem_blk1]
  obtain ⟨-, -, -, -, -, -, h0, h1⟩ := idx_facts1 ⟨(i 0).val / 5000, hlt⟩
  intro a
  match a with
  | ⟨0, _⟩ =>
    show win1_3.index ⟨(i 0).val / 5000, hlt⟩ (0 : Fin 2) * 5000 ≤ (i 0).val ∧ (i 0).val < win1_3.index ⟨(i 0).val / 5000, hlt⟩ (0 : Fin 2) * 5000 + 5000
    rw [h0]; show (i 0).val / 5000 * 5000 ≤ (i 0).val ∧ (i 0).val < (i 0).val / 5000 * 5000 + 5000; omega
  | ⟨1, _⟩ =>
    show win1_3.index ⟨(i 0).val / 5000, hlt⟩ (1 : Fin 2) * 128 ≤ (i 1).val ∧ (i 1).val < win1_3.index ⟨(i 0).val / 5000, hlt⟩ (1 : Fin 2) * 128 + 128
    rw [h1]; omega

/-- The second grid leaves the node update in its output array. -/
theorem update_array (c : Dev nD) : (dat1 V c).arrAt 3 cfg1.N = updates V c :=
  (dat1 V c).arrAt_eq_of_cover 3 (updates V c) (fun t _ => flushed1 V c t) cover1

end Cert.KernelIdeal.Blocks

end
-- ==== Proof.LibFlagLaw.lean ====
/-
  A one-bit flag as a number, and selecting between two values by it, on the extended reals.

  * The word of the float 1.0 denotes 1 (`one_word`); a one-bit word read as a number is 0 or 1 (`bit_cases`).
  * `law`: for a flag `f` that is 0 or 1, weighting two values `a`, `b` by `f · n` and `(1 - f) · n` and adding is
    forming `a · f + b · (1 - f)` and then multiplying by `n`. For `f = 0` both are `b · n`, for `f = 1` both are
    `a · n`: on the extended reals this takes only `0 · y = 0`, `y + 0 = y`, `1 · y = y`, `1 - 1 = 0` and
    associativity of the product, so none of `a`, `b`, `n` has to be finite.
-/
import Idealize.ShloMosaic.PureOps.Ideal.Laws

noncomputable section

namespace Cert.Lib.FlagLaw

open Idealize.ShloMosaic

/-- The word of the float 1.0 denotes 1. -/
theorem one_word : Ideal.ofBits .f32 0x3F800000#32 = (1 : EReal) := by
  simp [Ideal.ofBits, Ideal.ieee]
  norm_cast
  norm_num

/-- A one-bit word read as a number is 0 or 1. -/
theorem bit_cases (b : BitVec 1) : ((b.toNat : ℝ) : EReal) = 0 ∨ ((b.toNat : ℝ) : EReal) = 1 := by
  have h : b.toNat < 2 := b.isLt
  interval_cases hb : b.toNat <;> simp

theorem one_sub_one : (1 : EReal) - 1 = 0 := by
  rw [← EReal.coe_one, ← EReal.coe_sub]; simp

/-- Weighting each projection by its scaled flag is weighting the flagged sum. -/
theorem law (a b n f : EReal) (hf : f = 0 ∨ f = 1) :
    a * (f * n) + b * ((1 - f) * n) = (a * f + b * (1 - f)) * n := by
  rcases hf with rfl | rfl
  · simp [mul_assoc]
  · simp [one_sub_one]

end Cert.Lib.FlagLaw

end
-- ==== Proof.RefValue.lean ====
/-
  The reference's edge messages and result as the specification's functions.

  Read one stage at a time, entry `(e, q)` of the reference's message array is
  `(A · f + B · (1 - f)) · n`, with `A`, `B` row `e` of the composed features against column `q` of the two weights,
  `f` edge `e`'s flag as a number and `n` its norm. A scale array whose column 0 is `f · n` and column 1 is
  `(1 - f) · n` therefore gives the same messages through the kernel's spelling (the law of the flag), and the
  reference's result is the node update of the scatter-added messages.
-/
import proofs.«154744_j15006615732839_1_alg».proof.Proof.Gen.ReferenceIdeal.Read
import proofs.«154744_j15006615732839_1_alg».proof.Proof.Spec
import proofs.«154744_j15006615732839_1_alg».proof.Proof.LibFlagLaw

noncomputable section

open scoped BigOperators

namespace Cert.ReferenceIdeal.RefValue

open Cert.ReferenceIdeal Cert.ReferenceIdeal.Read Idealize.ShloMosaic Idealize.ShloMosaic.ValueIdx Cert.Spec

variable (x0 : (⟨S100000x128, .f32⟩ : BufTy).Contents (Elt Ideal)) (x1 x2 x3 : (⟨S128x128, .f32⟩ : BufTy).Contents (Elt Ideal)) (x4 : (⟨S100x128, .f32⟩ : BufTy).Contents (Elt Ideal))
  (x5 : (⟨S600000, .f32⟩ : BufTy).Contents (Elt Ideal)) (x6 : (⟨S2x600000, .i32⟩ : BufTy).Contents (Elt Ideal)) (x7 : (⟨S600000, .i32⟩ : BufTy).Contents (Elt Ideal))

/-- Edge `e`'s direction flag, a one-bit word, as a number. -/
def flag (e : Fin 600000) : EReal := FloatOps.uitofp (F := Ideal) .f32 (val_main_v5 (F := Ideal) x7 (ix1 e))

theorem flag_cases (e : Fin 600000) : flag x7 e = 0 ∨ flag x7 e = 1 := Cert.Lib.FlagLaw.bit_cases _

theorem lidx24 (e : Fin 600000) (q k : Fin 128) : lidx_main_v24 (ix2 e q) k = ix2 e k :=
  funext fun a => Fin.ext (by match a with | ⟨0, _⟩ => rfl | ⟨1, _⟩ => rfl)
theorem ridx24 (e : Fin 600000) (q k : Fin 128) : ridx_main_v24 (ix2 e q) k = ix2 k q :=
  funext fun a => Fin.ext (by match a with | ⟨0, _⟩ => rfl | ⟨1, _⟩ => rfl)
theorem lidx25 (e : Fin 600000) (q k : Fin 128) : lidx_main_v25 (ix2 e q) k = ix2 e k :=
  funext fun a => Fin.ext (by match a with | ⟨0, _⟩ => rfl | ⟨1, _⟩ => rfl)
theorem ridx25 (e : Fin 600000) (q k : Fin 128) : ridx_main_v25 (ix2 e q) k = ix2 k q :=
  funext fun a => Fin.ext (by match a with | ⟨0, _⟩ => rfl | ⟨1, _⟩ => rfl)
theorem idx28 (e : Fin 600000) (q : Fin 128) : idx_main_v28 (ix2 e q) = ix2 e (0 : Fin 1) :=
  funext fun a => Fin.ext (by match a with | ⟨0, _⟩ => rfl | ⟨1, _⟩ => rfl)
theorem idx32 (e : Fin 600000) (q : Fin 128) : idx_main_v32 (ix2 e q) = ix2 e (0 : Fin 1) :=
  funext fun a => Fin.ext (by match a with | ⟨0, _⟩ => rfl | ⟨1, _⟩ => rfl)
theorem idx36 (e : Fin 600000) (q : Fin 128) : idx_main_v36 (ix2 e q) = ix2 e (0 : Fin 1) :=
  funext fun a => Fin.ext (by match a with | ⟨0, _⟩ => rfl | ⟨1, _⟩ => rfl)
theorem idx26 (e : Fin 600000) : idx_main_v26 (ix2 e (0 : Fin 1)) = ix1 e :=
  funext fun a => Fin.ext (by match a with | ⟨0, _⟩ => rfl)
theorem idx35 (e : Fin 600000) : idx_main_v35 (ix2 e (0 : Fin 1)) = ix1 e :=
  funext fun a => Fin.ext (by match a with | ⟨0, _⟩ => rfl)

/-- The reference's message array is the specification's messages of the gathered arrays and a scale array whose two
    columns are the flag and its complement, each times the edge norm. -/
theorem messages_eq (aux : (⟨2, ![600000, 2]⟩ : Shape).Idx → EReal)
    (h0 : ∀ e : Fin 600000, aux (ix2 e (0 : Fin 2)) = flag x7 e * x5 (ix1 e))
    (h1 : ∀ e : Fin 600000, aux (ix2 e (1 : Fin 2)) = (Ideal.ofBits .f32 0x3F800000#32 - flag x7 e) * x5 (ix1 e)) :
    message (M := 600000) (val_main_v22 (F := Ideal) x0 x6) (val_main_v15 (F := Ideal) x4 x7) aux x2 x3
      = val_main_v37 (F := Ideal) x0 x2 x3 x4 x5 x6 x7 := by
  funext i
  obtain ⟨e, q, rfl⟩ : ∃ (e : Fin 600000) (q : Fin 128), i = ix2 e q := ⟨i 0, i 1, eq_ix2 i⟩
  rw [message_ix2]
  unfold messageAt rowDot
  rw [h0 e, h1 e]
  simp only [val_main_v37_apply, val_main_v34_apply, val_main_v29_apply, val_main_v33_apply, val_main_v24_apply,
    val_main_v25_apply, val_main_v28_apply, val_main_v32_apply, val_main_v36_apply, val_main_v35_apply,
    val_main_v27_apply, val_main_v31_apply, val_main_v30_apply, val_main_cst_apply, val_main_v26_apply,
    val_main_v23_apply, lidx24, ridx24, lidx25, ridx25, idx28, idx32, idx36, idx26, idx35,
    Ideal.mulf_def, Ideal.addf_def, Ideal.subf_def, Ideal.ofBits_def]
  rw [Cert.Lib.FlagLaw.one_word]
  exact Cert.Lib.FlagLaw.law _ _ _ _ (flag_cases x7 e)

theorem lidx41 (n : Fin 100000) (q k : Fin 128) : lidx_main_v41 (ix2 n q) k = ix2 n k :=
  funext fun a => Fin.ext (by match a with | ⟨0, _⟩ => rfl | ⟨1, _⟩ => rfl)
theorem ridx41 (n : Fin 100000) (q k : Fin 128) : ridx_main_v41 (ix2 n q) k = ix2 k q :=
  funext fun a => Fin.ext (by match a with | ⟨0, _⟩ => rfl | ⟨1, _⟩ => rfl)

/-- Entry `(n, q)` of the reference's result: the scattered sum there plus row `n` of the node features against column
    `q` of the self-loop weight. -/
theorem result_at (n : Fin 100000) (q : Fin 128) :
    val_main_v42 (F := Ideal) x0 x1 x2 x3 x4 x5 x6 x7 (ix2 n q)
      = selfLoopAt (M := 100000) x0 (val_main_v40 (F := Ideal) x0 x2 x3 x4 x5 x6 x7) x1 n q := by
  unfold selfLoopAt rowDot
  rw [val_main_v42_apply, val_main_v41_apply]
  simp only [lidx41, ridx41, Ideal.addf_def]

/-- The reference's result is the node update of its scatter-added messages. -/
theorem result_eq :
    val_main_v42 (F := Ideal) x0 x1 x2 x3 x4 x5 x6 x7
      = selfLoop (M := 100000) x0 (val_main_v40 (F := Ideal) x0 x2 x3 x4 x5 x6 x7) x1 := by
  funext i
  obtain ⟨n, q, rfl⟩ : ∃ (n : Fin 100000) (q : Fin 128), i = ix2 n q := ⟨i 0, i 1, eq_ix2 i⟩
  exact result_at x0 x1 x2 x3 x4 x5 x6 x7 n q

end Cert.ReferenceIdeal.RefValue

end
-- ==== Proof.LibAfter.lean ====
/-
  General facts for reading the fold of buffer contents through a line of host operations.

  * Over a concatenation: running two lines one after the other is running the first, then the second from what the first
    left (`after_append`).
  * A concatenation of TWO arrays with the arrays as plain arguments (`concat2`, `concatenate_pair`): in `concatenate` the
    operands sit in a list of (shape, array) pairs on which the shape fact depends, so a rewriting pass cannot go inside the
    list; stated over the two arrays it can.
  * `read_fold`: one rewriting pass that reads such a fold back at a buffer — each operation's result at its own result
    buffer is its function of the operands' contents, at any other buffer what was there — going inside two-operand
    concatenations as well.
-/
import Idealize.ShloMosaic.Lib.StableHlo.Run

noncomputable section

namespace Cert.Lib.After

open Idealize.ShloMosaic Idealize.ShloMosaic.StableHlo

variable {τ : Topo} {sig : RefSig} {Val : EltTy → Type}

/-- The contents after `l₁ ++ l₂` are the contents after `l₂` from the contents after `l₁`. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The concatenation of two arrays along an axis, the arrays as plain arguments. -/
def concat2 {α : Type} (t : Shape) (a : Fin t.rank) (s₁ s₂ : Shape) (x : s₁.Idx → α) (y : s₂.Idx → α)
    (h : Shape.Concatenates [s₁, s₂] t a) : t.Idx → α :=
  concatenate t a [⟨s₁, x⟩, ⟨s₂, y⟩] h

/-- A two-operand `concatenate` is that. -/
theorem concatenate_pair {α : Type} (t : Shape) (a : Fin t.rank) (s₁ s₂ : Shape) (x : s₁.Idx → α) (y : s₂.Idx → α)
    (h : Shape.Concatenates (([⟨s₁, x⟩, ⟨s₂, y⟩] : List ((s : Shape) × (s.Idx → α))).map (·.1)) t a) :
    concatenate t a [⟨s₁, x⟩, ⟨s₂, y⟩] h = concat2 t a s₁ s₂ x y (by simpa using h) := rfl

end Cert.Lib.After

/-- Reads a fold of host operations back at a buffer in one rewriting pass (the library's pass, and inside two-operand
    concatenations). -/
macro "read_fold" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.nary4_result', Idealize.ShloMosaic.StableHlo.nary_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne',
      Cert.Lib.After.concatenate_pair]))

end
-- ==== Proof.LibConcatRead.lean ====
/-
  Two-piece concatenations of small rank read at an entry.

  A concatenation of two arrays along an axis reads, at an index whose coordinate on that axis is below the first
  piece's extent, the first piece at the same coordinates; at or past it, the second piece with that coordinate lowered
  by the first extent. Stated here for the three forms a row- and lane-packing meets: two rank-2 arrays side by side
  (along the columns), two rank-2 arrays stacked (along the rows), and two rank-1 arrays end to end.
-/
import Idealize.ShloMosaic.Lib.ValueIdx
import Idealize.ShloMosaic.Lib.Pipeline.Value

noncomputable section

namespace Cert.Lib.ConcatRead

open Idealize.ShloMosaic Idealize.ShloMosaic.ValueIdx

variable {α : Type}

/-- Side by side, a column of the first piece. -/
theorem cols_left {a b₁ b₂ n : Nat} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, n]⟩ 1) (p : Fin a) (q : Fin n) (q' : Fin b₁)
    (hq : q'.val = q.val) :
    concatenate ⟨2, ![a, n]⟩ 1 [⟨⟨2, ![a, b₁]⟩, x₁⟩, ⟨⟨2, ![a, b₂]⟩, x₂⟩] h (ix2 p q) = x₁ (ix2 p q') :=
  concatenate_pair_apply_left 1 x₁ x₂ h (ix2 p q) rfl (ix2 p q') fun b => by
    match b with
    | ⟨0, _⟩ => rfl
    | ⟨1, _⟩ => exact hq

/-- Side by side, a column of the second piece. -/
theorem cols_right {a b₁ b₂ n : Nat} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, n]⟩ 1) (p : Fin a) (q : Fin n) (q' : Fin b₂)
    (hq : q'.val + b₁ = q.val) :
    concatenate ⟨2, ![a, n]⟩ 1 [⟨⟨2, ![a, b₁]⟩, x₁⟩, ⟨⟨2, ![a, b₂]⟩, x₂⟩] h (ix2 p q) = x₂ (ix2 p q') :=
  concatenate_pair_apply_right 1 x₁ x₂ h (ix2 p q) rfl rfl (ix2 p q') (fun b hb => by
    match b with
    | ⟨0, _⟩ => rfl
    | ⟨1, _⟩ => exact absurd rfl hb) hq

/-- Stacked, a row of the first piece. -/
theorem rows_left {a₁ a₂ b n : Nat} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![n, b]⟩ 0) (p : Fin n) (q : Fin b) (p' : Fin a₁)
    (hp : p'.val = p.val) :
    concatenate ⟨2, ![n, b]⟩ 0 [⟨⟨2, ![a₁, b]⟩, x₁⟩, ⟨⟨2, ![a₂, b]⟩, x₂⟩] h (ix2 p q) = x₁ (ix2 p' q) :=
  concatenate_pair_apply_left 0 x₁ x₂ h (ix2 p q) rfl (ix2 p' q) fun b => by
    match b with
    | ⟨0, _⟩ => exact hp
    | ⟨1, _⟩ => rfl

/-- Stacked, a row of the second piece. -/
theorem rows_right {a₁ a₂ b n : Nat} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![n, b]⟩ 0) (p : Fin n) (q : Fin b) (p' : Fin a₂)
    (hp : p'.val + a₁ = p.val) :
    concatenate ⟨2, ![n, b]⟩ 0 [⟨⟨2, ![a₁, b]⟩, x₁⟩, ⟨⟨2, ![a₂, b]⟩, x₂⟩] h (ix2 p q) = x₂ (ix2 p' q) :=
  concatenate_pair_apply_right 0 x₁ x₂ h (ix2 p q) rfl rfl (ix2 p' q) (fun b hb => by
    match b with
    | ⟨0, _⟩ => exact absurd rfl hb
    | ⟨1, _⟩ => rfl) hp

/-- End to end, an entry of the first piece. -/
theorem vec_left {a₁ a₂ n : Nat} (x₁ : (⟨1, ![a₁]⟩ : Shape).Idx → α) (x₂ : (⟨1, ![a₂]⟩ : Shape).Idx → α)
    (h : Shape.Concatenates [⟨1, ![a₁]⟩, ⟨1, ![a₂]⟩] ⟨1, ![n]⟩ 0) (p : Fin n) (p' : Fin a₁) (hp : p'.val = p.val) :
    concatenate ⟨1, ![n]⟩ 0 [⟨⟨1, ![a₁]⟩, x₁⟩, ⟨⟨1, ![a₂]⟩, x₂⟩] h (ix1 p) = x₁ (ix1 p') :=
  concatenate_pair_apply_left 0 x₁ x₂ h (ix1 p) rfl (ix1 p') fun b => by
    match b with
    | ⟨0, _⟩ => exact hp

/-- End to end, an entry of the second piece. -/
theorem vec_right {a₁ a₂ n : Nat} (x₁ : (⟨1, ![a₁]⟩ : Shape).Idx → α) (x₂ : (⟨1, ![a₂]⟩ : Shape).Idx → α)
    (h : Shape.Concatenates [⟨1, ![a₁]⟩, ⟨1, ![a₂]⟩] ⟨1, ![n]⟩ 0) (p : Fin n) (p' : Fin a₂) (hp : p'.val + a₁ = p.val) :
    concatenate ⟨1, ![n]⟩ 0 [⟨⟨1, ![a₁]⟩, x₁⟩, ⟨⟨1, ![a₂]⟩, x₂⟩] h (ix1 p) = x₂ (ix1 p') :=
  concatenate_pair_apply_right 0 x₁ x₂ h (ix1 p) rfl rfl (ix1 p') (fun b hb => by
    match b with
    | ⟨0, _⟩ => exact absurd rfl hb) hp

end Cert.Lib.ConcatRead

end
-- ==== Proof.KernelHost.lean ====
/-
  The arrays the two grids are entered with, read off the lines of array operations around them.

  The lines before the first grid compute, from the arguments alone, the gathered node features, the gathered
  relation rows and the 600000 x 2 scale array; they are the same operations on the same arguments as the
  reference program's first stages, so the gathered arrays are the reference's stages themselves (the two gathers are
  never opened), and the scale array's column 0 is the flag times the edge norm, its column 1 is one minus the flag
  times the edge norm. The lines between the grids scatter-add the first grid's output into a zero array along the
  destination indices; the weights and the node features reach both grids as launched.
-/
import proofs.«154744_j15006615732839_1_alg».proof.Proof.Gen.KernelIdeal.Frame
import proofs.«154744_j15006615732839_1_alg».proof.Proof.Gen.ReferenceIdeal.Read
import proofs.«154744_j15006615732839_1_alg».proof.Proof.RefValue
import proofs.«154744_j15006615732839_1_alg».proof.Proof.LibAfter
import proofs.«154744_j15006615732839_1_alg».proof.Proof.LibConcatRead

set_option maxRecDepth 16384

noncomputable section

namespace Cert.KernelIdeal.HostLines

open Cert.KernelIdeal Cert.KernelIdeal.Gen
open Idealize.ShloMosaic Idealize.ShloMosaic.TcCoe Idealize.SL.Sem Idealize.ShloMosaic.ValueIdx
open Cert.ReferenceIdeal.RefValue (flag)

variable (m : (ℓ : Loc nD τ sig) → Buf (Elt Ideal) ℓ) (ρ : Dev nD → PrngReg)

/-! ## Before the first grid -/

/-- The first grid is entered with the gathered node features the reference computes. -/
theorem gathered_features (c : Dev nD) :
    (V3 m ρ c main_v22 : S600000x128.Idx → EReal)
      = Cert.ReferenceIdeal.Read.val_main_v22 (F := Ideal) (m ((c.tc : Thread nD τ).loc main_arg0)) (m ((c.tc : Thread nD τ).loc main_arg6)) := by
  show StableHlo.after hostOps0_2 (StableHlo.after hostOps0_1 (StableHlo.after hostOps0 (W0 m ρ c))) (Proc.devRef .tc main_v22) = _
  simp only [hostOps0_2, hostOps0_1, hostOps0]
  read_fold
  rfl

/-- … and with the gathered relation rows the reference computes. -/
theorem gathered_relations (c : Dev nD) :
    (V3 m ρ c main_v15 : S600000x128.Idx → EReal)
      = Cert.ReferenceIdeal.Read.val_main_v15 (F := Ideal) (m ((c.tc : Thread nD τ).loc main_arg4)) (m ((c.tc : Thread nD τ).loc main_arg7)) := by
  show StableHlo.after hostOps0_2 (StableHlo.after hostOps0_1 (StableHlo.after hostOps0 (W0 m ρ c))) (Proc.devRef .tc main_v15) = _
  simp only [hostOps0_2, hostOps0_1, hostOps0]
  read_fold
  rfl

/-- The forward weight reaches the first grid as launched. -/
theorem forward_weight (c : Dev nD) : V3 m ρ c main_arg2 = (m ((c.tc : Thread nD τ).loc main_arg2)) := by
  show StableHlo.after hostOps0_2 (StableHlo.after hostOps0_1 (StableHlo.after hostOps0 (W0 m ρ c))) (Proc.devRef .tc main_arg2) = _
  simp only [hostOps0_2, hostOps0_1, hostOps0]
  read_fold

/-- The backward weight reaches the first grid as launched. -/
theorem backward_weight (c : Dev nD) : V3 m ρ c main_arg3 = (m ((c.tc : Thread nD τ).loc main_arg3)) := by
  show StableHlo.after hostOps0_2 (StableHlo.after hostOps0_1 (StableHlo.after hostOps0 (W0 m ρ c))) (Proc.devRef .tc main_arg3) = _
  simp only [hostOps0_2, hostOps0_1, hostOps0]
  read_fold

/-- A vector of 600000 entries laid out as a column, at `(e, 0)`. -/
theorem column_apply {α : Type} (v : S600000.Idx → α) (h : S600000.BroadcastsInDim S600000x1 ![0]) (e : Fin 600000) :
    broadcastInDim S600000x1 ![0] h v (ix2 e (0 : Fin 1)) = v (ix1 e) :=
  broadcastInDim_apply _ h v (ix2 e (0 : Fin 1)) (ix1 e) (fun a => match a with
    | ⟨0, _⟩ => by show e.val = if (600000 : Nat) = 1 then 0 else e.val; rw [if_neg (by decide)])

/-- The scale array: the flag's column beside its complement's column. -/
theorem scale_array (c : Dev nD) :
    (V3 m ρ c main_v30 : S600000x2.Idx → EReal)
      = concatenate S600000x2 1
          [⟨S600000x1, broadcastInDim S600000x1 ![0] bcast_S600000_S600000x1_0
              (mulf (uitofp .f32 (Cert.ReferenceIdeal.Read.val_main_v5 (F := Ideal) (m ((c.tc : Thread nD τ).loc main_arg7)))) (m ((c.tc : Thread nD τ).loc main_arg5)))⟩,
           ⟨S600000x1, broadcastInDim S600000x1 ![0] bcast_S600000_S600000x1_0
              (mulf (subf (broadcastInDim S600000 ![] bcast_S_S600000 (constant (F := Ideal) S_ .f32 0x3F800000#32))
                (uitofp .f32 (Cert.ReferenceIdeal.Read.val_main_v5 (F := Ideal) (m ((c.tc : Thread nD τ).loc main_arg7))))) (m ((c.tc : Thread nD τ).loc main_arg5)))⟩]
          concatenates_S600000x1_S600000x1_S600000x2_d1 := by
  show StableHlo.after hostOps0_2 (StableHlo.after hostOps0_1 (StableHlo.after hostOps0 (W0 m ρ c))) (Proc.devRef .tc main_v30) = _
  simp only [hostOps0_2, hostOps0_1, hostOps0]
  read_fold
  rfl

/-- Column 0 of the scale array: the edge's flag times its norm. -/
theorem scale_col0 (c : Dev nD) (e : Fin 600000) :
    (V3 m ρ c main_v30 : S600000x2.Idx → EReal) (ix2 e (0 : Fin 2))
      = flag (m ((c.tc : Thread nD τ).loc main_arg7)) e * ((m ((c.tc : Thread nD τ).loc main_arg5)) : S600000.Idx → EReal) (ix1 e) := by
  rw [scale_array m ρ c]
  refine (Cert.Lib.ConcatRead.cols_left (a := 600000) (b₁ := 1) (b₂ := 1) (n := 2) _ _ _ e (0 : Fin 2) (0 : Fin 1) rfl).trans ?_
  rw [column_apply]
  rfl

/-- Column 1 of the scale array: one minus the edge's flag, times its norm. -/
theorem scale_col1 (c : Dev nD) (e : Fin 600000) :
    (V3 m ρ c main_v30 : S600000x2.Idx → EReal) (ix2 e (1 : Fin 2))
      = (Ideal.ofBits .f32 0x3F800000#32 - flag (m ((c.tc : Thread nD τ).loc main_arg7)) e) * ((m ((c.tc : Thread nD τ).loc main_arg5)) : S600000.Idx → EReal) (ix1 e) := by
  rw [scale_array m ρ c]
  refine (Cert.Lib.ConcatRead.cols_right (a := 600000) (b₁ := 1) (b₂ := 1) (n := 2) _ _ _ e (1 : Fin 2) (0 : Fin 1) rfl).trans ?_
  rw [column_apply]
  rfl

/-! ## Between the grids -/

/-- The destination indices are untouched by the first grid: the reference's destination stage. -/
theorem destinations (c : Dev nD) :
    (W4 m ρ c (Proc.devRef .tc main_v3) : S600000.Idx → BitVec 32)
      = Cert.ReferenceIdeal.Read.val_main_v3 (F := Ideal) (m ((c.tc : Thread nD τ).loc main_arg6)) := by
  rw [W4_of_ne m ρ c main_v3 (by decide)]
  show StableHlo.after hostOps0_2 (StableHlo.after hostOps0_1 (StableHlo.after hostOps0 (W0 m ρ c))) (Proc.devRef .tc main_v3) = _
  simp only [hostOps0_2, hostOps0_1, hostOps0]
  read_fold
  rfl

/-- The second grid is entered with the first grid's output scatter-added into zeros along the destinations. -/
theorem scattered (c : Dev nD) :
    (V5 m ρ c main_v34 : S100000x128.Idx → EReal)
      = (Host.scatterAdd (F := Ideal) (φ := .f32) Cert.ReferenceIdeal.scatter_S100000x128_S600000x1_S600000x128_1_0_0_1
          (Cert.ReferenceIdeal.Read.val_main_v38 (F := Ideal))
          (Cert.ReferenceIdeal.Read.val_main_v39 (F := Ideal) (m ((c.tc : Thread nD τ).loc main_arg6)))
          (W4 m ρ c (Proc.devRef .tc main_v31) : S600000x128.Idx → EReal) : S100000x128.Idx → EReal) := by
  show StableHlo.after hostOps1 (W4 m ρ c) (Proc.devRef .tc main_v34) = _
  simp only [hostOps1]
  read_fold
  rw [destinations m ρ c]
  rfl

/-- The node features reach the second grid as launched. -/
theorem node_features (c : Dev nD) : V5 m ρ c main_arg0 = (m ((c.tc : Thread nD τ).loc main_arg0)) := by
  show StableHlo.after hostOps1 (W4 m ρ c) (Proc.devRef .tc main_arg0) = _
  simp only [hostOps1]
  read_fold
  rw [W4_of_ne m ρ c main_arg0 (by decide)]
  show StableHlo.after hostOps0_2 (StableHlo.after hostOps0_1 (StableHlo.after hostOps0 (W0 m ρ c))) (Proc.devRef .tc main_arg0) = _
  simp only [hostOps0_2, hostOps0_1, hostOps0]
  read_fold

/-- The self-loop weight reaches the second grid as launched. -/
theorem loop_weight (c : Dev nD) : V5 m ρ c main_arg1 = (m ((c.tc : Thread nD τ).loc main_arg1)) := by
  show StableHlo.after hostOps1 (W4 m ρ c) (Proc.devRef .tc main_arg1) = _
  simp only [hostOps1]
  read_fold
  rw [W4_of_ne m ρ c main_arg1 (by decide)]
  show StableHlo.after hostOps0_2 (StableHlo.after hostOps0_1 (StableHlo.after hostOps0 (W0 m ρ c))) (Proc.devRef .tc main_arg1) = _
  simp only [hostOps0_2, hostOps0_1, hostOps0]
  read_fold

end Cert.KernelIdeal.HostLines

end
-- ==== Proof.KernelValue.lean ====
/-
  The idealized kernel's result as the reference's result term of the same arguments.

  Reading the run back from its end: the second grid leaves the node update of the node features, the scattered
  sums and the self-loop weight; the scattered sums are the scatter-add, along the reference's destination stage, of
  the first grid's output into zeros; and the first grid's output is the edge messages of the gathered features, the
  gathered relation rows, the scale array and the two weights — which, the scale array's columns being the flag and
  its complement times the edge norm, is the reference's message array. So the result is the node update of the
  reference's own scatter-added messages, which is the reference's result.
-/
import proofs.«154744_j15006615732839_1_alg».proof.Proof.KernelRun
import proofs.«154744_j15006615732839_1_alg».proof.Proof.Blocks
import proofs.«154744_j15006615732839_1_alg».proof.Proof.KernelHost
import proofs.«154744_j15006615732839_1_alg».proof.Proof.RefValue

set_option maxRecDepth 16384

noncomputable section

namespace Cert.KernelIdeal.ResultValue

open Cert.KernelIdeal Cert.KernelIdeal.Gen Cert.KernelIdeal.HostLines Cert.Spec
open Idealize.ShloMosaic Idealize.ShloMosaic.TcCoe Idealize.SL.Sem Idealize.ShloMosaic.ValueIdx

variable (m : (ℓ : Loc nD τ sig) → Buf (Elt Ideal) ℓ) (ρ : Dev nD → PrngReg)

/-- The first grid's output array is the reference's message array of the launch arguments. -/
theorem messages_value (c : Dev nD) :
    (W4 m ρ c (Proc.devRef .tc main_v31) : S600000x128.Idx → EReal)
      = Cert.ReferenceIdeal.Read.val_main_v37 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W4_arr m ρ c 5).trans ?_
  rw [Cert.KernelIdeal.Blocks.message_array (V3 m ρ) c]
  show message (M := 600000) (V3 m ρ c main_v22 : S600000x128.Idx → EReal) (V3 m ρ c main_v15 : S600000x128.Idx → EReal)
    (V3 m ρ c main_v30 : S600000x2.Idx → EReal) (V3 m ρ c main_arg2 : S128x128.Idx → EReal) (V3 m ρ c main_arg3 : S128x128.Idx → EReal) = _
  rw [gathered_features m ρ c, gathered_relations m ρ c, forward_weight m ρ c, backward_weight m ρ c]
  exact Cert.ReferenceIdeal.RefValue.messages_eq _ _ _ _ _ _ _ (V3 m ρ c main_v30) (scale_col0 m ρ c) (scale_col1 m ρ c)

/-- The result buffer's final contents are the reference's result term of the launch arguments. -/
theorem result_value (c : Dev nD) :
    (W6 m ρ c (Proc.devRef .tc main_v35) : S100000x128.Idx → EReal)
      = Cert.ReferenceIdeal.Read.val_main_v42 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W6_arr m ρ c 3).trans ?_
  rw [Cert.KernelIdeal.Blocks.update_array (V5 m ρ) c]
  show selfLoop (M := 100000) (V5 m ρ c main_arg0 : S100000x128.Idx → EReal) (V5 m ρ c main_v34 : S100000x128.Idx → EReal)
    (V5 m ρ c main_arg1 : S128x128.Idx → EReal) = _
  rw [node_features m ρ c, loop_weight m ρ c, scattered m ρ c, messages_value m ρ c, Cert.ReferenceIdeal.RefValue.result_eq]
  rfl

end Cert.KernelIdeal.ResultValue

end
-- ==== Proof.lean ====
/-
  The certificate's five claims.

  Both programs compute one layer of relational message passing: every edge composes its source node's features
  with its relation's row, projects the product with a forward or a backward weight according to the edge's flag,
  scales by the edge's norm, and the messages are summed at their destination nodes and added to the nodes' own
  projection. The kernel splits the work into two grids with gathers and a scatter-add between them, and folds the
  flag into two per-edge scales before projecting; the reference projects with both weights and selects afterwards.
  At the ideal values both results are one function of the arguments (Proof/KernelValue.lean), the three frames are the
  generated runs, and the idealization rewrote nothing.
-/
import proofs.«154744_j15006615732839_1_alg».proof.Defs
import proofs.«154744_j15006615732839_1_alg».proof.Proof.Gen.Kernel
import proofs.«154744_j15006615732839_1_alg».proof.Proof.Gen.Kernel.Skeleton
import proofs.«154744_j15006615732839_1_alg».proof.Proof.Gen.Kernel.Launch
import proofs.«154744_j15006615732839_1_alg».proof.Proof.Gen.Kernel.Points
import proofs.«154744_j15006615732839_1_alg».proof.Proof.Gen.Kernel.Frame
import proofs.«154744_j15006615732839_1_alg».proof.Proof.Gen.KernelIdeal
import proofs.«154744_j15006615732839_1_alg».proof.Proof.Gen.KernelIdeal.Skeleton
import proofs.«154744_j15006615732839_1_alg».proof.Proof.Gen.KernelIdeal.Launch
import proofs.«154744_j15006615732839_1_alg».proof.Proof.Gen.KernelIdeal.Points
import proofs.«154744_j15006615732839_1_alg».proof.Proof.Gen.KernelIdeal.Frame
import proofs.«154744_j15006615732839_1_alg».proof.Proof.Gen.ReferenceIdeal
import proofs.«154744_j15006615732839_1_alg».proof.Proof.Gen.Pre_finite_inputs
import proofs.«154744_j15006615732839_1_alg».proof.Proof.Gen.ReferenceIdeal.Run
import proofs.«154744_j15006615732839_1_alg».proof.Proof.Gen.ReferenceIdeal.Read
import proofs.«154744_j15006615732839_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernel_ideal : Cert.frame_KernelIdeal := fun m ρ _ => Cert.KernelIdeal.Gen.frame m ρ

/-- The idealized reference runs and leaves its arguments unchanged: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the same result array. -/
theorem algebraic : Cert.algebraic_KernelIdeal_ReferenceIdeal := by
  intro m ρ m' ρ' _ hagree
  refine ⟨fun c => Cert.KernelIdeal.Gen.W6 m ρ c (Proc.devRef .tc Cert.KernelIdeal.main_v35),
    Cert.KernelIdeal.RunValue.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v42_eq]
  obtain ⟨e0, e1, e2, e3, e4, e5, e6, e7⟩ := hagree c
  rw [e0, e1, e2, e3, e4, e5, e6, e7]
  exact (Cert.KernelIdeal.ResultValue.result_value m ρ c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
